-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S150x768 : Shape := ⟨2, ![150, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S150x768 : S_.BroadcastsInDim S150x768 (![] : Fin 0 → Fin S150x768.rank)
  reducesTo_S150x768_S_d0_1 : S150x768.ReducesTo [0, 1] S_

variable [Facts]

def fn {F : FTy → Type} [FloatOps F] (main_arg0 : FVec F S16x768x64x64 .f32) (main_arg1 : FVec F S150x768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S150x768 .f32 := Host.absf main_arg1
  let main_cst_0 : FVec F S_ .f32 := constant S_ .f32 0x7F800000#32
  let main_v5 : FVec F S150x768 .f32 := broadcastInDim S150x768 ![] bcast_S_S150x768 main_cst_0
  let main_v6 : IVec S150x768 1 := cmpf .olt main_v4 main_v5
  let main_c_1 : IVec S_ 1 := constantI S_ 1 1#1
  let main_v7 : IVec S_ 1 := (fun x v => Host.reduce IntOp.andi x v reducesTo_S150x768_S_d0_1 h_S_) main_v6 main_c_1
  let main_v8 : IVec S_ 1 := andi main_v3 main_v7
  main_v8
-- ==== Kernel.lean ====
abbrev S16x768x64x64 : Shape := ⟨4, ![16, 768, 64, 64]⟩
abbrev S150x768 : Shape := ⟨2, ![150, 768]⟩
abbrev S_ : Shape := ⟨0, ![]⟩
abbrev S150 : Shape := ⟨1, ![150]⟩
abbrev S150x1 : Shape := ⟨2, ![150, 1]⟩
abbrev S768 : Shape := ⟨1, ![768]⟩
abbrev S1x768 : Shape := ⟨2, ![1, 768]⟩
abbrev S1x128x64x64 : Shape := ⟨4, ![1, 128, 64, 64]⟩
abbrev S1x128 : Shape := ⟨2, ![1, 128]⟩
abbrev S1x128x1x1 : Shape := ⟨4, ![1, 128, 1, 1]⟩

abbrev nBuf : Space → Nat
  | .hbm => 20
  | .vmem => 6
  | .smem => 0
  | _ => 0

abbrev bufTy : (tb : Table) → Fin (tcTables nBuf tb) → BufTy
  | .hbm, ⟨0, _⟩ => ⟨S16x768x64x64, .f32⟩
  | .hbm, ⟨1, _⟩ => ⟨S150x768, .f32⟩
  | .hbm, ⟨2, _⟩ => ⟨S_, .f32⟩
  | .hbm, ⟨3, _⟩ => ⟨S150, .f32⟩
  | .hbm, ⟨4, _⟩ => ⟨S_, .f32⟩
  | .hbm, ⟨5, _⟩ => ⟨S150, .f32⟩
  | .hbm, ⟨6, _⟩ => ⟨S150, .f32⟩
  | .hbm, ⟨7, _⟩ => ⟨S150x1, .f32⟩
  | .hbm, ⟨8, _⟩ => ⟨S150x768, .f32⟩
  | .hbm, ⟨9, _⟩ => ⟨S150x768, .f32⟩
  | .hbm, ⟨10, _⟩ => ⟨S150x768, .f32⟩
  | .hbm, ⟨11, _⟩ => ⟨S_, .f32⟩
  | .hbm, ⟨12, _⟩ => ⟨S150, .f32⟩
  | .hbm, ⟨13, _⟩ => ⟨S150x1, .f32⟩
  | .hbm, ⟨14, _⟩ => ⟨S150x768, .f32⟩
  | .hbm, ⟨15, _⟩ => ⟨S150x768, .f32⟩
  | .hbm, ⟨16, _⟩ => ⟨S_, .f32⟩
  | .hbm, ⟨17, _⟩ => ⟨S768, .f32⟩
  | .hbm, ⟨18, _⟩ => ⟨S1x768, .f32⟩
  | .hbm, ⟨19, _⟩ => ⟨S16x768x64x64, .f32⟩
  | .local _ .vmem, ⟨0, _⟩ => ⟨S1x128x64x64, .f32⟩
  | .local _ .vmem, ⟨1, _⟩ => ⟨S1x128x64x64, .f32⟩
  | .local _ .vmem, ⟨2, _⟩ => ⟨S1x128, .f32⟩
  | .local _ .vmem, ⟨3, _⟩ => ⟨S1x128, .f32⟩
  | .local _ .vmem, ⟨4, _⟩ => ⟨S1x128x64x64, .f32⟩
  | .local _ .vmem, ⟨5, _⟩ => ⟨S1x128x64x64, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S150x768_S150_d1 : S150x768.ReducesTo [1] S150
  h_S_ : 0 < S_.numel
  bcast_S_S150 : S_.BroadcastsInDim S150 (![] : Fin 0 → Fin S150.rank)
  bcast_S150_S150x1_0 : S150.BroadcastsInDim S150x1 (![0] : Fin 1 → Fin S150x1.rank)
  bcast_S150x1_S150x768_0_1 : S150x1.BroadcastsInDim S150x768 (![0, 1] : Fin 2 → Fin S150x768.rank)
  reducesTo_S150x768_S768_d0 : S150x768.ReducesTo [0] S768
  shapeCasts_S768_S1x768 : S768.ShapeCasts S1x768
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x128x1x1 : S1x128.ShapeCasts S1x128x1x1
  inb_S1x128x64x64_S1x128x64x64_0_0_0_0 : ∀ a, (![0, 0, 0, 0] : Fin 4 → Nat) a + S1x128x64x64.size a ≤ S1x128x64x64.size a
  h_S1x128x64x64 : 0 < S1x128x64x64.numel
  broadcasts_S1x128x1x1_S1x128x64x64 : S1x128x1x1.Broadcasts S1x128x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S16x768x64x64.size a
  hwx0_0 : ∀ i : grid0.Coords, EltTy.bits .f32 = 32 ∨ (Rect.block (s := S16x768x64x64) S1x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x768.size a
  hwx0_1 : ∀ i : grid0.Coords, EltTy.bits .f32 = 32 ∨ (Rect.block (s := S1x768) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x64.size a ≤ S16x768x64x64.size a
  hwx0_2 : ∀ i : grid0.Coords, EltTy.bits .f32 = 32 ∨ (Rect.block (s := S16x768x64x64) S1x128x64x64.size (cc0_transform_2 i) (hinb0_2 i)).WholeWords (EltTy.packing .f32)

variable [Facts₀]

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S150x768 : Shape := ⟨2, ![150, 768]⟩
abbrev S_ : Shape := ⟨0, ![]⟩
abbrev S150 : Shape := ⟨1, ![150]⟩
abbrev S150x1 : Shape := ⟨2, ![150, 1]⟩
abbrev S768 : Shape := ⟨1, ![768]⟩
abbrev S1x768x1x1 : Shape := ⟨4, ![1, 768, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S150x768, .f32⟩
  | .hbm, ⟨2, _⟩ => ⟨S_, .f32⟩
  | .hbm, ⟨3, _⟩ => ⟨S150, .f32⟩
  | .hbm, ⟨4, _⟩ => ⟨S_, .f32⟩
  | .hbm, ⟨5, _⟩ => ⟨S150, .f32⟩
  | .hbm, ⟨6, _⟩ => ⟨S150, .f32⟩
  | .hbm, ⟨7, _⟩ => ⟨S150x1, .f32⟩
  | .hbm, ⟨8, _⟩ => ⟨S150x768, .f32⟩
  | .hbm, ⟨9, _⟩ => ⟨S150x768, .f32⟩
  | .hbm, ⟨10, _⟩ => ⟨S150x768, .f32⟩
  | .hbm, ⟨11, _⟩ => ⟨S_, .f32⟩
  | .hbm, ⟨12, _⟩ => ⟨S150, .f32⟩
  | .hbm, ⟨13, _⟩ => ⟨S150x1, .f32⟩
  | .hbm, ⟨14, _⟩ => ⟨S150x768, .f32⟩
  | .hbm, ⟨15, _⟩ => ⟨S150x768, .f32⟩
  | .hbm, ⟨16, _⟩ => ⟨S_, .f32⟩
  | .hbm, ⟨17, _⟩ => ⟨S768, .f32⟩
  | .hbm, ⟨18, _⟩ => ⟨S1x768x1x1, .f32⟩
  | .hbm, ⟨19, _⟩ => ⟨S16x768x64x64, .f32⟩
  | .hbm, ⟨20, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S150x768_S150_d1 : S150x768.ReducesTo [1] S150
  h_S_ : 0 < S_.numel
  bcast_S_S150 : S_.BroadcastsInDim S150 (![] : Fin 0 → Fin S150.rank)
  bcast_S150_S150x1_0 : S150.BroadcastsInDim S150x1 (![0] : Fin 1 → Fin S150x1.rank)
  bcast_S150x1_S150x768_0_1 : S150x1.BroadcastsInDim S150x768 (![0, 1] : Fin 2 → Fin S150x768.rank)
  reducesTo_S150x768_S768_d0 : S150x768.ReducesTo [0] S768
  bcast_S768_S1x768x1x1_1 : S768.BroadcastsInDim S1x768x1x1 (![1] : Fin 1 → Fin S1x768x1x1.rank)
  bcast_S1x768x1x1_S16x768x64x64_0_1_2_3 : S1x768x1x1.BroadcastsInDim S16x768x64x64 (![0, 1, 2, 3] : Fin 4 → Fin S16x768x64x64.rank)

variable [Facts₀]

class Facts : Prop extends Facts₀ where

variable [Facts]
-- ==== Proof.ChannelScale.lean ====
/-
  The mathematics both programs share, stated once over literal shapes and with no program in sight.

  From a matrix of logits `a : [150, 768]` both programs form, on the host and by the same operations,
  the row-wise softmax `p k c = exp (a k c - max_c' a k c') / Σ_c' exp (a k c' - max_c'' a k c'')`
  and then its column sums `s c = Σ_k p k c`, one number per channel. That chain is carried here as ONE
  function `colSums` of the logits; nothing below ever opens it: the two programs are compared only
  in what they do with its result, which is to scale the activation `x : [16, 768, 64, 64]` channel by
  channel, `y b c h w = x b c h w * s c` (`scaleChannels`).
-/
import Idealize.ShloMosaic.PureOps
import Idealize.ShloMosaic.Lib.ValueIdx

noncomputable section

namespace Cert.ChannelScale

open Idealize.ShloMosaic

abbrev Logits : Shape := ⟨2, ![150, 768]⟩
abbrev Rows : Shape := ⟨1, ![150]⟩
abbrev RowsCol : Shape := ⟨2, ![150, 1]⟩
abbrev Chans : Shape := ⟨1, ![768]⟩
abbrev Scalar : Shape := ⟨0, ![]⟩
abbrev Act : Shape := ⟨4, ![16, 768, 64, 64]⟩

variable {F : FTy → Type} [FloatOps F]

/-- The shape relations the chain's reductions and broadcasts are stated under. -/
structure ShapeFacts : Prop where
  rows : Logits.ReducesTo [1] Rows
  scalar : 0 < Scalar.numel
  splat : Scalar.BroadcastsInDim Rows (![] : Fin 0 → Fin Rows.rank)
  col : Rows.BroadcastsInDim RowsCol (![0] : Fin 1 → Fin RowsCol.rank)
  wide : RowsCol.BroadcastsInDim Logits (![0, 1] : Fin 2 → Fin Logits.rank)
  chans : Logits.ReducesTo [0] Chans

/-- The exponentials `exp (a k c - max_c' a k c')` of the logits, each row shifted by its maximum
    (the maximum taken against `-∞`, the word `0xFF800000`). -/
def shiftedExp (h : ShapeFacts) (a : FVec F Logits .f32) : FVec F Logits .f32 :=
  Host.exp (subf a (broadcastInDim Logits ![0, 1] h.wide (broadcastInDim RowsCol ![0] h.col
    (maximumf (broadcastInDim Rows ![] h.splat (constant Scalar .f32 0xFF800000#32))
      (Host.reduce FloatOps.maximumf a (constant Scalar .f32 0xFF800000#32) h.rows h.scalar)))))

/-- The column sums of the row-wise softmax of the logits: `s c = Σ_k e k c / Σ_c' e k c'` with
    `e = shiftedExp a`, both sums the host's float sums from the zero word. -/
def colSums (h : ShapeFacts) (a : FVec F Logits .f32) : FVec F Chans .f32 :=
  Host.reduceAdd (Host.divf (shiftedExp h a) (broadcastInDim Logits ![0, 1] h.wide (broadcastInDim RowsCol ![0] h.col
    (Host.reduceAdd (shiftedExp h a) (constant Scalar .f32 0x00000000#32) h.rows h.scalar))))
    (constant Scalar .f32 0x00000000#32) h.chans h.scalar

/-- The channel of an activation index, as an index of the per-channel vector. -/
abbrev chanOf (i : Act.Idx) : Chans.Idx := ValueIdx.ix1 (⟨(i 1).val, (i 1).isLt⟩ : Fin 768)

/-- The activation scaled channel by channel: `y b c h w = x b c h w * s c`. -/
def scaleChannels (x : FVec F Act .f32) (s : FVec F Chans .f32) : FVec F Act .f32 :=
  fun i => FloatOps.mulf (x i) (s (chanOf i))

end Cert.ChannelScale

end
-- ==== Proof.KernelScale.lean ====
/-
  What the kernel's second operand holds when the region is entered.

  Before its one region the kernel's program computes, on the host, the per-channel scale — the column
  sums of the row-wise softmax of the logits (`ChannelScale.colSums`) — and re-lays that vector of 768
  numbers as a 1 × 768 matrix. So the array the region stages its scale blocks from holds, at row 0 and
  column `k`, the `k`-th column sum.
-/
import proofs.«175635_j89970974916930_2_alg».proof.Proof.Gen.KernelIdeal.Frame
import proofs.«175635_j89970974916930_2_alg».proof.Proof.ChannelScale
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The shape relations of the host chain, as this program's own facts supply them. -/
theorem shapeFacts : ChannelScale.ShapeFacts :=
  ⟨Gen.reducesTo_S150x768_S150_d1, Gen.h_S_, Gen.bcast_S_S150, Gen.bcast_S150_S150x1_0,
    Gen.bcast_S150x1_S150x768_0_1, Gen.reducesTo_S150x768_S768_d0⟩

/-- At region entry the scale operand's array is the column sums of the softmax of the launched logits,
    re-laid from 768 numbers to a 1 × 768 matrix. -/
theorem scale_at_entry (c : Dev nD) :
    (V m c main_v12 : S1x768.Idx → Elt F .f32)
      = fun i => shapeCast S1x768 (ChannelScale.colSums (F := F) shapeFacts (m ((c : Thread nD τ).loc main_arg1)))
          Gen.shapeCasts_S768_S1x768 i := by
  dsimp only [Gen.V, Gen.hostOps0]
  after_results
  rfl

/-- Read at row 0 and column `k`, it is the `k`-th column sum. -/
theorem scale_at_entry_apply (c : Dev nD) (k : Fin 768) :
    (V m c main_v12 : S1x768.Idx → Elt F .f32) (ValueIdx.ix2 (0 : Fin 1) k)
      = ChannelScale.colSums (F := F) shapeFacts (m ((c : Thread nD τ).loc main_arg1)) (ValueIdx.ix1 k) := by
  rw [scale_at_entry]
  refine shapeCast_apply _ _ (ValueIdx.ix2 (0 : Fin 1) k) (ValueIdx.ix1 k) ?_
  rw [Shape.rowMajor_val_one, Shape.rowMajor_val_two]
  show k.val = 0 * 768 + k.val
  omega

end Cert.KernelIdeal.HostSide

end
-- ==== Proof.KernelValue.lean ====
/-
  The kernel's result array, as one function of the launched arrays.

  The region walks a 16 × 6 grid. At point `(b, q)` it stages the activation's block of batch `b` and
  channels `128 q … 128 q + 127` (all 64 × 64 positions) and the scale's block of the same 128 channels,
  multiplies every activation element by the scale element of its channel, and writes the product back
  to the same block of the result. The 96 blocks tile the result array, so after the run the result at
  `(b, c, h, w)` is the activation there times the scale at channel `c` — and the scale, as the region
  found it, is the column sums of the softmax of the logits (`HostSide.scale_at_entry_apply`).
-/
import proofs.«175635_j89970974916930_2_alg».proof.Proof.Gen.KernelIdeal.Value
import proofs.«175635_j89970974916930_2_alg».proof.Proof.KernelScale

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The channel of an element of an activation block, as a column of the scale block. -/
abbrev blockChan (y : S1x128x64x64.Idx) : S1x128.Idx :=
  ValueIdx.ix2 (0 : Fin 1) (⟨(y 1).val, (y 1).isLt⟩ : Fin 128)

/-- What the body leaves in the output block, element by element: the activation block's element times
    the scale block's element of the same channel. -/
theorem body_apply (x0 : Vec F S1x128x64x64 .f32) (x1 : Vec F S1x128 .f32) (y : S1x128x64x64.Idx) :
    out0_2 x0 x1 y = FloatOps.mulf (x0 y) (x1 (blockChan y)) := by
  unfold out0_2
  rw [Value.canon2_eq]
  show FloatOps.mulf (View.ld x0 r0_1 (Value.ix2_0 y)) (View.ld x1 r0_0 (Value.ix2_1 y)) = _
  rw [View.ld_unit_zero (S := S1x128x64x64) zero4, View.ld_unit_zero (S := S1x128) zero2]
  have h0 : (y 0).val < 1 := (y 0).isLt
  have e0 : Value.ix2_0 y = y := by
    funext a; apply Fin.ext
    match a with
    | ⟨0, _⟩ => show 0 = (y 0).val; omega
    | ⟨1, _⟩ => rfl
    | ⟨2, _⟩ => rfl
    | ⟨3, _⟩ => rfl
  have e1 : Value.ix2_1 y = blockChan y := by
    funext a; apply Fin.ext
    match a with
    | ⟨0, _⟩ => rfl
    | ⟨1, _⟩ => rfl
  rw [e0, e1]

/-- The activation's block at a point is read off the activation as the region finds it. -/
theorem act_block (c : Dev nD) (t : Fin cfg0.N) (y : S1x128x64x64.Idx) :
    iblk m c 0 t y = V m c main_arg0 (((cfg0.win 0).blk t).view.emb y) := rfl

/-- The scale's block at a point is read off the scale as the region finds it. -/
theorem scale_block (c : Dev nD) (t : Fin cfg0.N) (y : S1x128.Idx) :
    iblk m c 1 t y = V m c main_v12 (((cfg0.win 1).blk t).view.emb y) := rfl

/-- The activation scaled channel by channel by a 1 × 768 scale. -/
def scaled (x : Vec F S16x768x64x64 .f32) (s : Vec F S1x768 .f32) : Vec F S16x768x64x64 .f32 :=
  fun i => FloatOps.mulf (x i) (s (ValueIdx.ix2 (0 : Fin 1) (⟨(i 1).val, (i 1).isLt⟩ : Fin 768)))

/-- The printed index maps, decided over the grid: the activation's block moves with the result's, the
    scale's block is the result's channel block of row 0, and the result's block indices stay in range. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 2) = 0 ∧ win0_1.index t (1 : Fin 2) = win0_2.index t (1 : Fin 4)
    ∧ win0_2.index t (0 : Fin 4) ≤ 15 ∧ win0_2.index t (1 : Fin 4) ≤ 5
    ∧ win0_2.index t (2 : Fin 4) = 0 ∧ win0_2.index t (3 : Fin 4) = 0 :=
  (by decide +kernel : ∀ t : Fin grid0.N, _)

/-- Every (batch, channel block) pair is some point's. -/
theorem idx_onto : ∀ (q0 : Fin 16) (q1 : Fin 6), ∃ t : Fin cfg0.N, win0_2.index t = ![q0.val, q1.val, 0, 0] :=
  (by decide +kernel : ∀ (q0 : Fin 16) (q1 : Fin 6), ∃ t : Fin grid0.N, win0_2.index t = ![q0.val, q1.val, 0, 0])

/-- What point `t` writes back is block `t` of the scaled activation. -/
theorem flushed_eq (c : Dev nD) (t : Fin cfg0.N) :
    (dats m 0 c).flushed 2 t
      = ((cfg0.win 2).blk t).view.read (Elt F) (scaled (V m c main_arg0) (V m c main_v12)) := by
  show (cfg0.win 2).cut (grid0.coords t) ((dats m 0 c).after 2 t) = _
  rw [after0_2]
  obtain ⟨e0, e1, e2, e3, e4, e5, e6, e7, e8, e9⟩ := idx_facts t
  funext j
  show out0_2 (iblk m c 0 t) (iblk m c 1 t) j
    = scaled (V m c main_arg0) (V m c main_v12) (((cfg0.win 2).blk t).view.emb j)
  rw [body_apply, act_block, scale_block]
  unfold scaled
  have hj0 : (j 0).val < 1 := (j 0).isLt
  have hj1 : (j 1).val < 128 := (j 1).isLt
  have hj2 : (j 2).val < 64 := (j 2).isLt
  have hj3 : (j 3).val < 64 := (j 3).isLt
  have h0 : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 128 + 1 * (j 1).val = win0_2.index t (1 : Fin 4) * 128 + 1 * (j 1).val; omega
    | ⟨2, _⟩ => show win0_0.index t (2 : Fin 4) * 64 + 1 * (j 2).val = win0_2.index t (2 : Fin 4) * 64 + 1 * (j 2).val; omega
    | ⟨3, _⟩ => show win0_0.index t (3 : Fin 4) * 64 + 1 * (j 3).val = win0_2.index t (3 : Fin 4) * 64 + 1 * (j 3).val; omega
  have h1 : ((cfg0.win 1).blk t).view.emb (blockChan j)
      = ValueIdx.ix2 (0 : Fin 1) (⟨((((cfg0.win 2).blk t).view.emb j) 1).val, ((((cfg0.win 2).blk t).view.emb j) 1).isLt⟩ : Fin 768) := by
    funext a; apply Fin.ext
    match a with
    | ⟨0, _⟩ => show win0_1.index t (0 : Fin 2) * 1 + 1 * 0 = 0; omega
    | ⟨1, _⟩ => show win0_1.index t (1 : Fin 2) * 128 + 1 * (j 1).val = win0_2.index t (1 : Fin 4) * 128 + 1 * (j 1).val; omega
  rw [h0, h1]

/-- An index of the result is in point `t`'s block iff each coordinate is in the block's range on its axis. -/
theorem mem_blk (t : Fin cfg0.N) (i : S16x768x64x64.Idx) :
    i ∈ ((cfg0.win 2).blk t).view.set
      ↔ ∀ a : Fin 4, win0_2.index t a * S1x128x64x64.size a ≤ (i a).val
          ∧ (i a).val < win0_2.index t a * S1x128x64x64.size a + S1x128x64x64.size a := by
  show i ∈ ((View.whole main_v13).slice (win0_2.rect t)).set ↔ _
  rw [View.set_slice_whole, Rect.mem_set_unit]
  exact Iff.rfl

/-- The 96 blocks tile the result: the element at batch `b` and channel `c` is in the block of the point
    with batch `b` and channel block `c / 128`. -/
theorem cover (i : S16x768x64x64.Idx) :
    ∃ t : Fin cfg0.N, (cfg0.win 2).flush t = true ∧ i ∈ ((cfg0.win 2).blk t).view.set := by
  have hi0 : (i 0).val < 16 := (i 0).isLt
  have hi1 : (i 1).val < 768 := (i 1).isLt
  have hi2 : (i 2).val < 64 := (i 2).isLt
  have hi3 : (i 3).val < 64 := (i 3).isLt
  obtain ⟨t, ht⟩ := idx_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- The result array after the run: the launched activation scaled, channel by channel, by the column
    sums of the softmax of the launched logits. -/
theorem final (c : Dev nD) :
    (dats m 0 c).arrAt 2 cfg0.N
      = ChannelScale.scaleChannels (F := F) (m ((c : Thread nD τ).loc main_arg0))
          (ChannelScale.colSums (F := F) HostSide.shapeFacts (m ((c : Thread nD τ).loc main_arg1))) := by
  rw [(dats m 0 c).arrAt_eq_of_cover 2 (scaled (V m c main_arg0) (V m c main_v12))
    (fun t _ => flushed_eq m c t) cover]
  funext i
  unfold scaled ChannelScale.scaleChannels
  rw [HostSide.scale_at_entry_apply, V_main_arg0]

/-- The kernel's run, with the result array named as that function of the launched arrays. -/
theorem run : θ_run defs (onTc (τ := τ) (main (F := F))) ⟨m, fun _ => 0, ρ⟩ fun r => ∀ c : Dev nD,
      r.2.mem ((c : Thread nD τ).loc main_v13)
        = ChannelScale.scaleChannels (F := F) (m ((c : Thread nD τ).loc main_arg0))
            (ChannelScale.colSums (F := F) HostSide.shapeFacts (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.ReferenceValue.lean ====
/-
  The reference's result, index by index.

  The reference forms the same per-channel scale on the host — the column sums of the row-wise softmax
  of the logits (`ChannelScale.colSums`) —, spreads it over the activation's shape (first to
  1 × 768 × 1 × 1, then to 16 × 768 × 64 × 64: the element at `(b, c, h, w)` is the `c`-th column sum)
  and multiplies the activation by it element by element. So its result is the activation scaled channel
  by channel (`ChannelScale.scaleChannels`).
-/
import proofs.«175635_j89970974916930_2_alg».proof.Proof.Gen.ReferenceIdeal.Read
import proofs.«175635_j89970974916930_2_alg».proof.Proof.ChannelScale
import Idealize.ShloMosaic.Lib.ValueIdx

noncomputable section

namespace Cert.ReferenceIdeal.HostSide

open Cert.ReferenceIdeal Cert.ReferenceIdeal.Gen Idealize.ShloMosaic Idealize.ShloMosaic.TcCoe Idealize.SL.Sem

variable {F : FTy → Type} [FloatOps F]

/-- The shape relations of the host chain, as this program's own facts supply them. -/
theorem shapeFacts : ChannelScale.ShapeFacts :=
  ⟨Gen.reducesTo_S150x768_S150_d1, Gen.h_S_, Gen.bcast_S_S150, Gen.bcast_S150_S150x1_0,
    Gen.bcast_S150x1_S150x768_0_1, Gen.reducesTo_S150x768_S768_d0⟩

/-- The reference's sum over the classes is the column sums of the softmax of the logits: the same
    chain of host operations, operation for operation. -/
theorem colSums_stage (a : FVec F S150x768 .f32) :
    Read.val_main_v11 (F := F) a = ChannelScale.colSums (F := F) shapeFacts a := rfl

/-- The reference's result is the activation scaled channel by channel by those column sums: the two
    broadcasts read the per-channel vector at the index's channel, whatever its other coordinates. -/
theorem result_eq (x : FVec F S16x768x64x64 .f32) (a : FVec F S150x768 .f32) :
    Read.val_main_v14 (F := F) x a
      = ChannelScale.scaleChannels (F := F) x (ChannelScale.colSums (F := F) shapeFacts a) := by
  funext i
  rw [Read.val_main_v14_apply, Read.val_main_v13_apply, Read.val_main_v12_apply, colSums_stage]
  show FloatOps.mulf (x i) (ChannelScale.colSums (F := F) shapeFacts a (Read.idx_main_v12 (Read.idx_main_v13 i)))
    = FloatOps.mulf (x i) (ChannelScale.colSums (F := F) shapeFacts a (ChannelScale.chanOf i))
  refine congrArg (FloatOps.mulf (x i)) (congrArg _ ?_)
  funext d
  match d with
  | ⟨0, _⟩ => rfl

end Cert.ReferenceIdeal.HostSide

end
-- ==== Proof.lean ====
/-
  The kernel scales an activation `x : [16, 768, 64, 64]` channel by channel: `y b c h w = x b c h w * s c`,
  where `s c = Σ_k softmax(a) k c` is the column sum, over the 150 classes, of the row-wise softmax of the
  logits `a : [150, 768]`. Both programs compute `s` on the host by the same chain of operations
  (`ChannelScale.colSums`); they differ only in how the product is formed. The kernel re-lays `s` as a
  1 × 768 matrix and multiplies block by block over a 16 × 6 grid, each block one batch entry and 128
  channels (`KernelIdeal.Blocks.run`: the 96 blocks tile the result). The reference spreads `s` over the
  activation's shape and multiplies once (`ReferenceIdeal.HostSide.result_eq`). Either way the result is
  `ChannelScale.scaleChannels x (colSums a)`, the same term of the same arguments, so the two results are
  equal on all extended reals and no finiteness of the inputs is used.

  The three frames are the generated frame runs (the reference's is its generated run with the result
  dropped); the idealization rewrote nothing, so there is nothing to preserve.
-/
import proofs.«175635_j89970974916930_2_alg».proof.Defs
import proofs.«175635_j89970974916930_2_alg».proof.Proof.Gen.Kernel
import proofs.«175635_j89970974916930_2_alg».proof.Proof.Gen.Kernel.Skeleton
import proofs.«175635_j89970974916930_2_alg».proof.Proof.Gen.Kernel.Launch
import proofs.«175635_j89970974916930_2_alg».proof.Proof.Gen.Kernel.Points
import proofs.«175635_j89970974916930_2_alg».proof.Proof.Gen.Kernel.Frame
import proofs.«175635_j89970974916930_2_alg».proof.Proof.Gen.KernelIdeal
import proofs.«175635_j89970974916930_2_alg».proof.Proof.Gen.KernelIdeal.Skeleton
import proofs.«175635_j89970974916930_2_alg».proof.Proof.Gen.KernelIdeal.Launch
import proofs.«175635_j89970974916930_2_alg».proof.Proof.Gen.KernelIdeal.Points
import proofs.«175635_j89970974916930_2_alg».proof.Proof.Gen.KernelIdeal.Frame
import proofs.«175635_j89970974916930_2_alg».proof.Proof.Gen.ReferenceIdeal
import proofs.«175635_j89970974916930_2_alg».proof.Proof.Gen.Pre_finite_inputs
import proofs.«175635_j89970974916930_2_alg».proof.Proof.Gen.KernelIdeal.Value
import proofs.«175635_j89970974916930_2_alg».proof.Proof.Gen.ReferenceIdeal.Run
import proofs.«175635_j89970974916930_2_alg».proof.Proof.Gen.ReferenceIdeal.Read
import proofs.«175635_j89970974916930_2_alg».proof.Proof.KernelValue
import proofs.«175635_j89970974916930_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the activation scaled, channel by channel, by the column sums of the softmax of the
    logits: the kernel's block by block, the reference's in one product; the arguments agree. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.HostSide.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
